-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S5000 : Shape := ⟨1, ![5000]⟩
abbrev S5000x1 : Shape := ⟨2, ![5000, 1]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 88
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000, .f32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000, .f32⟩
  | .hbm, ⟨79, _⟩ => ⟨S50000x1, .f32⟩
  | .hbm, ⟨80, _⟩ => ⟨S_, .f32⟩
  | .hbm, ⟨81, _⟩ => ⟨S50000x1, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x1, .f32⟩
  | .hbm, ⟨87, _⟩ => ⟨S50000x1, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S50000x64, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x64, .f32⟩
  | .hbm, ⟨110, _⟩ => ⟨S850000x1, .f32⟩
  | .hbm, ⟨111, _⟩ => ⟨S850000x64, .f32⟩
  | .hbm, ⟨112, _⟩ => ⟨S850000x64, .f32⟩
  | .hbm, ⟨113, _⟩ => ⟨S_, .f32⟩
  | .hbm, ⟨114, _⟩ => ⟨S50000x64, .f32⟩
  | .hbm, ⟨115, _⟩ => ⟨S850000x1, .i32⟩
  | .hbm, ⟨116, _⟩ => ⟨S50000x64, .f32⟩
  | .hbm, ⟨117, _⟩ => ⟨S1x64, .f32⟩
  | .hbm, ⟨118, _⟩ => ⟨S50000x64, .f32⟩
  | .hbm, ⟨119, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named.

  @main is nine segments: stretches of host operations and four kernel regions. The contents of every unscoped buffer
  at each segment boundary are a fold from the launch memory; at the last boundary the fold is `Gen.W9`. Every weakly
  fair execution terminates with every unscoped buffer at that fold, so the result array ends at `W9` read at the
  result's buffer, and each argument array as launched.
-/
import proofs.«153675_j66005057405276_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and every argument array as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.Spec.lean ====
/-
  The graph-convolution network as functions of whole arrays over the extended reals.

  A node's row of 128 features goes through four dense steps, with a neighbourhood aggregation (a gather of
  rows along the edges, a per-edge scaling and a scatter-add back to the nodes) between them:
    * a row times a weight matrix: entry (p, q) is the sum over k of x(p, k) · w(k, q);
    * a bias row added to every row, the row then centred by its mean, scaled by the reciprocal square root of
      its variance plus ε (mean and variance are sums over the 128 lanes divided by 128), multiplied lane by lane
      by γ, shifted by β and clipped below at zero;
    * a second row-times-matrix step down to 64 lanes;
    * a bias row added to every row.
  Each is stated for ONE row first, so that it reads the same on a block of rows and on the whole array.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- A matrix of extended reals with literal extents. -/
abbrev Mat (r c : ℕ) : Type := (⟨2, ![r, c]⟩ : Shape).Idx → EReal
/-- A vector of extended reals with a literal extent. -/
abbrev Vect (n : ℕ) : Type := (⟨1, ![n]⟩ : Shape).Idx → EReal

/-- The row and the column of a matrix index, as numbers below the literal extents. -/
abbrev rowOf {r c : ℕ} (i : (⟨2, ![r, c]⟩ : Shape).Idx) : Fin r := ⟨(i 0).val, idx2_lt0 i⟩
abbrev colOf {r c : ℕ} (i : (⟨2, ![r, c]⟩ : Shape).Idx) : Fin c := ⟨(i 1).val, idx2_lt1 i⟩

/-- The one row of a [1, n] matrix, and a vector, as functions of the lane. -/
def row128 (y : Mat 1 128) : Fin 128 → EReal := fun k => y (ix2 (0 : Fin 1) k)
def row64 (y : Mat 1 64) : Fin 64 → EReal := fun k => y (ix2 (0 : Fin 1) k)
def vec128 (x : Vect 128) : Fin 128 → EReal := fun k => x (ix1 k)
def vec64 (x : Vect 64) : Fin 64 → EReal := fun k => x (ix1 k)

/-! ## One row -/

/-- The literals of the normalisation: 128 (the lane count), ε, and zero, as the extended reals their words denote. -/
def c128 : EReal := Ideal.ofBits .f32 0x43000000#32
def cEps : EReal := Ideal.ofBits .f32 0x358637BD#32
def cZero : EReal := Ideal.ofBits .f32 0x00000000#32

/-- A row against a column: the sum of the lane products. -/
def dotRow (xr wc : Fin 128 → EReal) : EReal := ∑ k : Fin 128, xr k * wc k

/-- The mean of a row's 128 lanes. -/
def rowMean (pre : Fin 128 → EReal) : EReal := Ideal.div (∑ k : Fin 128, pre k) c128
/-- The variance: the mean of the squared deviations from the mean. -/
def rowVar (pre : Fin 128 → EReal) : EReal :=
  Ideal.div (∑ k : Fin 128, (pre k - rowMean pre) * (pre k - rowMean pre)) c128
/-- Lane q of the normalised, scaled, shifted and clipped row. -/
def lnreluRow (pre g be : Fin 128 → EReal) (q : Fin 128) : EReal :=
  max ((pre q - rowMean pre) * Ideal.rsqrt (rowVar pre + cEps) * g q + be q) cZero

/-! ## Whole arrays -/

/-- Rows times a 128 × 128 weight matrix. -/
def mm128 (x : Mat 50000 128) (w : Mat 128 128) : Mat 50000 128 :=
  fun i => dotRow (fun k => x (ix2 (rowOf i) k)) (fun k => w (ix2 k (colOf i)))
/-- Rows times a 128 × 64 weight matrix. -/
def mm64 (x : Mat 50000 128) (w : Mat 128 64) : Mat 50000 64 :=
  fun i => dotRow (fun k => x (ix2 (rowOf i) k)) (fun k => w (ix2 k (colOf i)))
/-- Bias, layer normalisation over the lanes, γ, β and the clip at zero, row by row. -/
def lnrelu (a : Mat 50000 128) (b g be : Fin 128 → EReal) : Mat 50000 128 :=
  fun i => lnreluRow (fun k => a (ix2 (rowOf i) k) + b k) g be (colOf i)
/-- A bias row added to every row. -/
def addRow64 (a : Mat 50000 64) (b : Fin 64 → EReal) : Mat 50000 64 :=
  fun i => a i + b (colOf i)

theorem mm128_apply (x : Mat 50000 128) (w : Mat 128 128) (p : Fin 50000) (q : Fin 128) :
    mm128 x w (ix2 p q) = dotRow (fun k => x (ix2 p k)) (fun k => w (ix2 k q)) := rfl
theorem mm64_apply (x : Mat 50000 128) (w : Mat 128 64) (p : Fin 50000) (q : Fin 64) :
    mm64 x w (ix2 p q) = dotRow (fun k => x (ix2 p k)) (fun k => w (ix2 k q)) := rfl
theorem lnrelu_apply (a : Mat 50000 128) (b g be : Fin 128 → EReal) (p : Fin 50000) (q : Fin 128) :
    lnrelu a b g be (ix2 p q) = lnreluRow (fun k => a (ix2 p k) + b k) g be q := rfl
theorem addRow64_apply (a : Mat 50000 64) (b : Fin 64 → EReal) (p : Fin 50000) (q : Fin 64) :
    addRow64 a b (ix2 p q) = a (ix2 p q) + b q := rfl

end Cert.Gcn

end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.RefIsSpec.lean ====
/-
  Four stages of the reference, read over the extended reals, are the specification's functions of whole arrays:
  the two products of rows by a weight matrix, the bias / layer normalisation / γ, β / clip step between them, and the
  last bias. Each is proved entry by entry: the stage at (p, q) is unfolded one operation at a time down to its
  operands at indices written by coordinates, where it is the specification's expression. The two neighbourhood
  aggregations (scatter-adds) are never opened: the statements carry them as they stand.
-/
import proofs.«153675_j66005057405276_1_alg».proof.Proof.RefReadP
import proofs.«153675_j66005057405276_1_alg».proof.Proof.Spec
import proofs.«153675_j66005057405276_1_alg».proof.Proof.LibIndexRead
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.ReadP Cert.Gcn Idealize.ShloMosaic Idealize.ShloMosaic.ValueIdx Idealize.ShloMosaic.RowRead

/-! ## Index arithmetic

The index an operation reads its operand at, at an index written by coordinates, is again an index written by
coordinates. -/

private theorem lidx30 (p : Fin 50000) (q k : Fin 128) : lidx_main_v30 (ix2 p q) k = ix2 p k :=
  funext fun a => Fin.ext (by match a with | ⟨0, _⟩ => rfl | ⟨1, _⟩ => rfl)
private theorem ridx30 (p : Fin 50000) (q k : Fin 128) : ridx_main_v30 (ix2 p q) k = ix2 k q :=
  funext fun a => Fin.ext (by match a with | ⟨0, _⟩ => rfl | ⟨1, _⟩ => rfl)

/-- The first product of rows by the weight matrix: entry (p, q) is the sum over k of x(p, k) · w(k, q). -/
theorem v30_eq (x0 : (⟨S50000x128, .f32⟩ : BufTy).Contents (Elt Ideal)) (x2 : (⟨S128x128, .f32⟩ : BufTy).Contents (Elt Ideal)) :
    val_main_v30 (F := Ideal) x0 x2 = Cert.Gcn.mm128 x0 x2 := by
  funext i
  obtain ⟨p, q, rfl⟩ : ∃ (p : Fin 50000) (q : Fin 128), i = ix2 p q := ⟨i 0, i 1, eq_ix2 i⟩
  rw [Cert.Gcn.mm128_apply, val_main_v30_apply]
  refine Finset.sum_congr rfl fun k _ => ?_
  rw [lidx30, ridx30]

private theorem lidx72 (p : Fin 50000) (q : Fin 64) (k : Fin 128) : lidx_main_v72 (ix2 p q) k = ix2 p k :=
  funext fun a => Fin.ext (by match a with | ⟨0, _⟩ => rfl | ⟨1, _⟩ => rfl)
private theorem ridx72 (p : Fin 50000) (q : Fin 64) (k : Fin 128) : ridx_main_v72 (ix2 p q) k = ix2 k q :=
  funext fun a => Fin.ext (by match a with | ⟨0, _⟩ => rfl | ⟨1, _⟩ => rfl)

/-- The second product, down to 64 lanes: entry (p, q) is the sum over k of y(p, k) · w(k, q). -/
theorem v72_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x64, .f32⟩ : BufTy).Contents (Elt Ideal)) :
    val_main_v72 (F := Ideal) x0 x1 x2 x3 x4 x5 x6 = Cert.Gcn.mm64 (val_main_v71 (F := Ideal) x0 x1 x2 x3 x4 x5) x6 := by
  funext i
  obtain ⟨p, q, rfl⟩ : ∃ (p : Fin 50000) (q : Fin 64), i = ix2 p q := ⟨i 0, i 1, eq_ix2 i⟩
  rw [Cert.Gcn.mm64_apply, val_main_v72_apply]
  refine Finset.sum_congr rfl fun k _ => ?_
  rw [lidx72, ridx72]

private theorem idx86_87 (p : Fin 50000) (q : Fin 64) : idx_main_v86 (idx_main_v87 (ix2 p q)) = ix1 q :=
  funext fun a => Fin.ext (by match a with | ⟨0, _⟩ => rfl)

/-- The last bias: the bias row, laid as one row and spread over the rows, adds lane q of the bias to entry (p, q). -/
theorem v88_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) (x6 : (⟨S128x64, .f32⟩ : BufTy).Contents (Elt Ideal)) (x7 : (⟨S64, .f32⟩ : BufTy).Contents (Elt Ideal)) :
    val_main_v88 (F := Ideal) x0 x1 x2 x3 x4 x5 x6 x7 = Cert.Gcn.addRow64 (val_main_v85 (F := Ideal) x0 x1 x2 x3 x4 x5 x6) (Cert.Gcn.vec64 x7) := by
  funext i
  obtain ⟨p, q, rfl⟩ : ∃ (p : Fin 50000) (q : Fin 64), i = ix2 p q := ⟨i 0, i 1, eq_ix2 i⟩
  rw [Cert.Gcn.addRow64_apply, val_main_v88_apply, val_main_v87_apply, val_main_v86_apply, idx86_87]
  rfl

private theorem idx44_45 (p : Fin 50000) (k : Fin 128) : idx_main_v44 (idx_main_v45 (ix2 p k)) = ix1 k :=
  funext fun a => Fin.ext (by match a with | ⟨0, _⟩ => rfl)
private theorem idx65_66 (p : Fin 50000) (k : Fin 128) : idx_main_v65 (idx_main_v66 (ix2 p k)) = ix1 k :=
  funext fun a => Fin.ext (by match a with | ⟨0, _⟩ => rfl)
private theorem idx68_69 (p : Fin 50000) (k : Fin 128) : idx_main_v68 (idx_main_v69 (ix2 p k)) = ix1 k :=
  funext fun a => Fin.ext (by match a with | ⟨0, _⟩ => rfl)
private theorem idx47 (p : Fin 50000) (k : Fin 128) : idx_main_v47 (ix1 p) k = ix2 p k :=
  funext fun a => Fin.ext (by match a with | ⟨0, _⟩ => rfl | ⟨1, _⟩ => rfl)
private theorem idx54 (p : Fin 50000) (k : Fin 128) : idx_main_v54 (ix1 p) k = ix2 p k :=
  funext fun a => Fin.ext (by match a with | ⟨0, _⟩ => rfl | ⟨1, _⟩ => rfl)
private theorem idx48 (p : Fin 50000) (u : Fin 1) : idx_main_v48 (ix2 p u) = ix1 p :=
  funext fun a => Fin.ext (by match a with | ⟨0, _⟩ => rfl)
private theorem idx55 (p : Fin 50000) (u : Fin 1) : idx_main_v55 (ix2 p u) = ix1 p :=
  funext fun a => Fin.ext (by match a with | ⟨0, _⟩ => rfl)
private theorem idx51 (p : Fin 50000) (k : Fin 128) : idx_main_v51 (ix2 p k) = ix2 p (0 : Fin 1) :=
  funext fun a => Fin.ext (by match a with | ⟨0, _⟩ => rfl | ⟨1, _⟩ => rfl)
private theorem idx58 (p : Fin 50000) (k : Fin 128) : idx_main_v58 (ix2 p k) = ix2 p (0 : Fin 1) :=
  funext fun a => Fin.ext (by match a with | ⟨0, _⟩ => rfl | ⟨1, _⟩ => rfl)
private theorem idx63 (p : Fin 50000) (k : Fin 128) : idx_main_v63 (ix2 p k) = ix2 p (0 : Fin 1) :=
  funext fun a => Fin.ext (by match a with | ⟨0, _⟩ => rfl | ⟨1, _⟩ => rfl)

/-! ## The layer normalisation, one stage at a time -/

/-- The pre-activation: the aggregated features plus the bias row, at (p, k). -/
theorem v46_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (p : Fin 50000) (k : Fin 128) :
    val_main_v46 (F := Ideal) x0 x1 x2 x3 (ix2 p k)
      = val_main_v43 (F := Ideal) x0 x1 x2 (ix2 p k) + Cert.Gcn.vec128 x3 k := by
  rw [val_main_v46_apply, val_main_v45_apply, val_main_v44_apply, idx44_45]
  rfl

/-- The row sum of the pre-activation: the zero initial value adds nothing. -/
theorem v47_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (p : Fin 50000) :
    val_main_v47 (F := Ideal) x0 x1 x2 x3 (ix1 p)
      = ∑ k : Fin 128, (val_main_v43 (F := Ideal) x0 x1 x2 (ix2 p k) + Cert.Gcn.vec128 x3 k) := by
  rw [val_main_v47_apply, val_main_cst_9_apply, Ideal.ofBits_def, Ideal.ofBits_zero_f32, zero_add]
  refine Finset.sum_congr rfl fun k _ => ?_
  rw [idx47, v46_at]

/-- The mean of row p, kept as a column: the row sum over the lane count. -/
theorem v50_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (p : Fin 50000) (u : Fin 1) :
    val_main_v50 (F := Ideal) x0 x1 x2 x3 (ix2 p u)
      = Cert.Gcn.rowMean (fun k => val_main_v43 (F := Ideal) x0 x1 x2 (ix2 p k) + Cert.Gcn.vec128 x3 k) := by
  rw [val_main_v50_apply, val_main_v48_apply, idx48, v47_at, val_main_v49_apply, val_main_cst_10_apply]
  rfl

/-- The deviation from the mean at (p, k). -/
theorem v52_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (p : Fin 50000) (k : Fin 128) :
    val_main_v52 (F := Ideal) x0 x1 x2 x3 (ix2 p k)
      = (val_main_v43 (F := Ideal) x0 x1 x2 (ix2 p k) + Cert.Gcn.vec128 x3 k)
        - Cert.Gcn.rowMean (fun k => val_main_v43 (F := Ideal) x0 x1 x2 (ix2 p k) + Cert.Gcn.vec128 x3 k) := by
  rw [val_main_v52_apply, val_main_v51_apply, idx51, v50_at, v46_at]
  rfl

/-- The same deviation, as the normalisation reads it a second time. -/
theorem v59_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (p : Fin 50000) (k : Fin 128) :
    val_main_v59 (F := Ideal) x0 x1 x2 x3 (ix2 p k)
      = (val_main_v43 (F := Ideal) x0 x1 x2 (ix2 p k) + Cert.Gcn.vec128 x3 k)
        - Cert.Gcn.rowMean (fun k => val_main_v43 (F := Ideal) x0 x1 x2 (ix2 p k) + Cert.Gcn.vec128 x3 k) := by
  rw [val_main_v59_apply, val_main_v58_apply, idx58, v50_at, v46_at]
  rfl

/-- The variance of row p, kept as a column: the sum of the squared deviations over the lane count. -/
theorem v57_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (p : Fin 50000) (u : Fin 1) :
    val_main_v57 (F := Ideal) x0 x1 x2 x3 (ix2 p u)
      = Cert.Gcn.rowVar (fun k => val_main_v43 (F := Ideal) x0 x1 x2 (ix2 p k) + Cert.Gcn.vec128 x3 k) := by
  rw [val_main_v57_apply, val_main_v55_apply, idx55, val_main_v54_apply, val_main_cst_11_apply, Ideal.ofBits_def,
    Ideal.ofBits_zero_f32, zero_add, val_main_v56_apply, val_main_cst_12_apply]
  unfold Cert.Gcn.rowVar
  refine congrArg (fun s => Ideal.div s Cert.Gcn.c128) (Finset.sum_congr rfl fun k _ => ?_)
  rw [idx54, val_main_v53_apply, v52_at]
  rfl

/-- The reciprocal square root of the variance plus ε, kept as a column. -/
theorem v62_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (p : Fin 50000) (u : Fin 1) :
    val_main_v62 (F := Ideal) x0 x1 x2 x3 (ix2 p u)
      = Ideal.rsqrt (Cert.Gcn.rowVar (fun k => val_main_v43 (F := Ideal) x0 x1 x2 (ix2 p k) + Cert.Gcn.vec128 x3 k) + Cert.Gcn.cEps) := by
  rw [val_main_v62_apply, val_main_v61_apply, v57_at, val_main_v60_apply, val_main_cst_13_apply]
  rfl

/-- Bias, layer normalisation over the lanes, γ, β and the clip at zero: the reference's stages are the
    specification's row function on the aggregated features. -/
theorem v71_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 x4 x5 : (⟨S128, .f32⟩ : BufTy).Contents (Elt Ideal)) :
    val_main_v71 (F := Ideal) x0 x1 x2 x3 x4 x5
      = Cert.Gcn.lnrelu (val_main_v43 (F := Ideal) x0 x1 x2) (Cert.Gcn.vec128 x3) (Cert.Gcn.vec128 x4) (Cert.Gcn.vec128 x5) := by
  funext i
  obtain ⟨p, q, rfl⟩ : ∃ (p : Fin 50000) (q : Fin 128), i = ix2 p q := ⟨i 0, i 1, eq_ix2 i⟩
  rw [Cert.Gcn.lnrelu_apply, val_main_v71_apply, val_main_v70_apply, val_main_v67_apply, val_main_v64_apply,
    v59_at, val_main_v63_apply, idx63, v62_at,
    val_main_v66_apply, val_main_v65_apply, idx65_66, val_main_v69_apply, val_main_v68_apply, idx68_69,
    val_main_call1_v0_apply, val_main_call1_cst_apply]
  rfl

end Cert.ReferenceIdeal.RefValue

end
-- ==== Proof.Region0.lean ====
/-
  The first dense step, from blocks to the whole array.

  The kernel's grid has ten points; point t takes rows 5000·t … 5000·t + 4999 of the features (all 128 lanes), the
  whole 128 × 128 weight matrix, and writes back the same rows of the result. A block's entry (r, q) is the row
  5000·t + r of the features against column q of the weights, so each written block is the restriction of ONE
  function of the two arrays, rows times weights; the ten blocks cover every row, and the array ends at that function.
-/
import proofs.«153675_j66005057405276_1_alg».proof.Proof.Gen.KernelIdeal.Frame
import proofs.«153675_j66005057405276_1_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the ten points: the row blocks move with the point, the weights stay. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point t writes back is block t of rows-times-weights of the two arrays as the region finds them, given the
    body's result at an entry: row r of the loaded block against column q of the loaded weights. -/
theorem flushed0
    (hpay : ∀ (x0 : Vec Ideal S5000x128 .f32) (x1 : Vec Ideal S128x128 .f32) (r : Fin 5000) (q : Fin 128),
      k0_pay1 (F := Ideal) x0 x1 (ix2 r q) = dotRow (fun k => x0 (ix2 r k)) (fun k => x1 (ix2 k q)))
    (c : Dev nD) (t : Fin cfg0.N) :
    (dat0 V c).flushed 2 t = ((cfg0.win 2).blk t).view.read (Elt Ideal) (mm128 (V c main_arg0) (V c main_arg2)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e00, e01, e10, e11, e20, e21, ht⟩ := index0 t
  funext j
  obtain ⟨r, q, rfl⟩ : ∃ (r : Fin 5000) (q : Fin 128), j = ix2 r q := ⟨j 0, j 1, eq_ix2 j⟩
  show k0_pay1 (iblk0 V c 0 t) (iblk0 V c 1 t) (ix2 r q)
    = mm128 (V c main_arg0) (V c main_arg2) (((cfg0.win 2).blk t).view.emb (ix2 r q))
  refine (hpay (iblk0 V c 0 t) (iblk0 V c 1 t) r q).trans ?_
  have hrow : t.val * 5000 + r.val < 50000 := by have := r.isLt; omega
  have hi : ((cfg0.win 2).blk t).view.emb (ix2 r q) = ix2 (⟨t.val * 5000 + r.val, hrow⟩ : Fin 50000) q := by
    funext a; apply Fin.ext
    match a with
    | ⟨0, _⟩ => show win0_2.index t (0 : Fin 2) * 5000 + 1 * r.val = t.val * 5000 + r.val; rw [e20]; omega
    | ⟨1, _⟩ => show win0_2.index t (1 : Fin 2) * 128 + 1 * q.val = q.val; rw [e21]; omega
  rw [hi, mm128_apply]
  unfold dotRow
  refine Finset.sum_congr rfl fun k _ => ?_
  have h0 : iblk0 V c 0 t (ix2 r k) = V c main_arg0 (ix2 (⟨t.val * 5000 + r.val, hrow⟩ : Fin 50000) k) := by
    show V c main_arg0 (((cfg0.win 0).blk t).view.emb (ix2 r k)) = _
    refine congrArg (V c main_arg0) ?_
    funext a; apply Fin.ext
    match a with
    | ⟨0, _⟩ => show win0_0.index t (0 : Fin 2) * 5000 + 1 * r.val = t.val * 5000 + r.val; rw [e00]; omega
    | ⟨1, _⟩ => show win0_0.index t (1 : Fin 2) * 128 + 1 * k.val = k.val; rw [e01]; omega
  have h1 : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  exact congrArg₂ (fun a b : EReal => a * b) h0 h1

/-- An index of the array lies in point t's block iff each coordinate lies in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every row lies in the block of the point numbered by the row divided by 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, e20, e21, -⟩ := index0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e20, ht]; omega
  | ⟨1, _⟩ => show win0_2.index t (1 : Fin 2) * 128 ≤ (i 1).val ∧ (i 1).val < win0_2.index t (1 : Fin 2) * 128 + 128; rw [e21]; omega

/-- The first dense step's array after its region: rows times weights of the arrays the region found. -/
theorem region0_value
    (hpay : ∀ (x0 : Vec Ideal S5000x128 .f32) (x1 : Vec Ideal S128x128 .f32) (r : Fin 5000) (q : Fin 128),
      k0_pay1 (F := Ideal) x0 x1 (ix2 r q) = dotRow (fun k => x0 (ix2 r k)) (fun k => x1 (ix2 k q)))
    (c : Dev nD) :
    (dat0 V c).arrAt 2 cfg0.N = mm128 (V c main_arg0) (V c main_arg2) :=
  (dat0 V c).arrAt_eq_of_cover 2 (mm128 (V c main_arg0) (V c main_arg2)) (fun t _ => flushed0 V hpay c t) cover0

end Cert.KernelIdeal.Blocks

end
-- ==== Proof.Region1.lean ====
/-
  The normalisation step, from blocks to the whole array.

  Point t of the ten-point grid takes rows 5000·t … 5000·t + 4999 of the aggregated features and the three parameter
  rows (bias, γ, β: each the one row of a [1, 128] array, the same at every point), and writes back the same rows of the
  result. The body works row by row: an entry (r, q) of the written block depends on row r of the loaded block and on
  the parameter rows only, and is lane q of that row biased, normalised over its 128 lanes, scaled, shifted and clipped.
  So each written block is the restriction of ONE row-wise function of the four arrays; the ten blocks cover every row.
-/
import proofs.«153675_j66005057405276_1_alg».proof.Proof.Gen.KernelIdeal.Frame
import proofs.«153675_j66005057405276_1_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2_r1 : (![0, 0] : Fin 2 → Nat) = fun _ => 0 := funext fun a => by fin_cases a <;> rfl

/-- The index maps over the ten points: the row blocks move with the point, the three parameter rows stay. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

/-- What point t writes back is block t of the row-wise normalisation of the arrays as the region finds them, given the
    body's result at an entry: lane q of row r of the loaded block, biased, normalised, scaled, shifted and clipped. -/
theorem flushed1
    (hpay : ∀ (x0 : Vec Ideal S5000x128 .f32) (x1 x2 x3 : Vec Ideal S1x128 .f32) (r : Fin 5000) (q : Fin 128),
      k1_pay1 (F := Ideal) x0 x1 x2 x3 (ix2 r q)
        = lnreluRow (fun k => x0 (ix2 r k) + row128 x1 k) (row128 x2) (row128 x3) q)
    (c : Dev nD) (t : Fin cfg1.N) :
    (dat1 V c).flushed 4 t = ((cfg1.win 4).blk t).view.read (Elt Ideal)
      (lnrelu (V c main_v43) (row128 (V c main_v44)) (row128 (V c main_v45)) (row128 (V c main_v46))) := by
  show (cfg1.win 4).cut (grid1.coords t) ((dat1 V c).after 4 t) = _
  rw [after1_4]
  unfold out1_4
  rw [View.canon_unit_zero zeros2_r1]
  simp only [View.ld_unit_zero (S := S5000x128) zeros2_r1, View.ld_unit_zero (S := S1x128) zeros2_r1]
  obtain ⟨e00, e01, e10, e11, e20, e21, e30, e31, e40, e41, ht⟩ := index1 t
  funext j
  obtain ⟨r, q, rfl⟩ : ∃ (r : Fin 5000) (q : Fin 128), j = ix2 r q := ⟨j 0, j 1, eq_ix2 j⟩
  show k1_pay1 (iblk1 V c 0 t) (iblk1 V c 1 t) (iblk1 V c 2 t) (iblk1 V c 3 t) (ix2 r q)
    = lnrelu (V c main_v43) (row128 (V c main_v44)) (row128 (V c main_v45)) (row128 (V c main_v46))
        (((cfg1.win 4).blk t).view.emb (ix2 r q))
  refine (hpay (iblk1 V c 0 t) (iblk1 V c 1 t) (iblk1 V c 2 t) (iblk1 V c 3 t) r q).trans ?_
  have hrow : t.val * 5000 + r.val < 50000 := by have := r.isLt; omega
  have hi : ((cfg1.win 4).blk t).view.emb (ix2 r q) = ix2 (⟨t.val * 5000 + r.val, hrow⟩ : Fin 50000) q := by
    funext a; apply Fin.ext
    match a with
    | ⟨0, _⟩ => show win1_4.index t (0 : Fin 2) * 5000 + 1 * r.val = t.val * 5000 + r.val; rw [e40]; omega
    | ⟨1, _⟩ => show win1_4.index t (1 : Fin 2) * 128 + 1 * q.val = q.val; rw [e41]; omega
  rw [hi, lnrelu_apply]
  have h0 : (fun k : Fin 128 => iblk1 V c 0 t (ix2 r k))
      = fun k : Fin 128 => V c main_v43 (ix2 (⟨t.val * 5000 + r.val, hrow⟩ : Fin 50000) k) := by
    funext k
    show V c main_v43 (((cfg1.win 0).blk t).view.emb (ix2 r k)) = _
    refine congrArg (V c main_v43) ?_
    funext a; apply Fin.ext
    match a with
    | ⟨0, _⟩ => show win1_0.index t (0 : Fin 2) * 5000 + 1 * r.val = t.val * 5000 + r.val; rw [e00]; omega
    | ⟨1, _⟩ => show win1_0.index t (1 : Fin 2) * 128 + 1 * k.val = k.val; rw [e01]; omega
  have h1 : row128 (iblk1 V c 1 t) = row128 (V c main_v44) := by
    funext k
    show V c main_v44 (((cfg1.win 1).blk t).view.emb (ix2 (0 : Fin 1) k)) = V c main_v44 (ix2 (0 : Fin 1) k)
    refine congrArg (V c main_v44) ?_
    funext a; apply Fin.ext
    match a with
    | ⟨0, _⟩ => show win1_1.index t (0 : Fin 2) * 1 + 1 * 0 = 0; rw [e10]
    | ⟨1, _⟩ => show win1_1.index t (1 : Fin 2) * 128 + 1 * k.val = k.val; rw [e11]; omega
  have h2 : row128 (iblk1 V c 2 t) = row128 (V c main_v45) := by
    funext k
    show V c main_v45 (((cfg1.win 2).blk t).view.emb (ix2 (0 : Fin 1) k)) = V c main_v45 (ix2 (0 : Fin 1) k)
    refine congrArg (V c main_v45) ?_
    funext a; apply Fin.ext
    match a with
    | ⟨0, _⟩ => show win1_2.index t (0 : Fin 2) * 1 + 1 * 0 = 0; rw [e20]
    | ⟨1, _⟩ => show win1_2.index t (1 : Fin 2) * 128 + 1 * k.val = k.val; rw [e21]; omega
  have h3 : row128 (iblk1 V c 3 t) = row128 (V c main_v46) := by
    funext k
    show V c main_v46 (((cfg1.win 3).blk t).view.emb (ix2 (0 : Fin 1) k)) = V c main_v46 (ix2 (0 : Fin 1) k)
    refine congrArg (V c main_v46) ?_
    funext a; apply Fin.ext
    match a with
    | ⟨0, _⟩ => show win1_3.index t (0 : Fin 2) * 1 + 1 * 0 = 0; rw [e30]
    | ⟨1, _⟩ => show win1_3.index t (1 : Fin 2) * 128 + 1 * k.val = k.val; rw [e31]; omega
  rw [h1, h2, h3]
  exact congrArg (fun f : Fin 128 → EReal =>
    lnreluRow (fun k => f k + row128 (V c main_v44) k) (row128 (V c main_v45)) (row128 (V c main_v46)) q) h0

/-- An index of the array lies in point t's block iff each coordinate lies in the block's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v47).slice (win1_4.rect t)).set ↔ _
  rw [View.set_slice_whole, Rect.mem_set_unit]
  exact Iff.rfl

/-- Every row lies in the block of the point numbered by the row divided by 5000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, -, -, -, e40, e41, -⟩ := index1 t
  have ht : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e40, ht]; omega
  | ⟨1, _⟩ => show win1_4.index t (1 : Fin 2) * 128 ≤ (i 1).val ∧ (i 1).val < win1_4.index t (1 : Fin 2) * 128 + 128; rw [e41]; omega

/-- The normalisation step's array after its region: the row-wise normalisation of the arrays the region found. -/
theorem region1_value
    (hpay : ∀ (x0 : Vec Ideal S5000x128 .f32) (x1 x2 x3 : Vec Ideal S1x128 .f32) (r : Fin 5000) (q : Fin 128),
      k1_pay1 (F := Ideal) x0 x1 x2 x3 (ix2 r q)
        = lnreluRow (fun k => x0 (ix2 r k) + row128 x1 k) (row128 x2) (row128 x3) q)
    (c : Dev nD) :
    (dat1 V c).arrAt 4 cfg1.N
      = lnrelu (V c main_v43) (row128 (V c main_v44)) (row128 (V c main_v45)) (row128 (V c main_v46)) :=
  (dat1 V c).arrAt_eq_of_cover 4 _ (fun t _ => flushed1 V hpay c t) cover1

end Cert.KernelIdeal.Blocks

end
-- ==== Proof.Region2.lean ====
/-
  The second dense step, from blocks to the whole array.

  The grid again has ten points. Point t loads rows 5000·t … 5000·t + 4999 of the normalised features (128 lanes each)
  and, unchanged from point to point, the whole 128 × 64 weight matrix; it writes back the same range of rows of the
  64-lane result. Entry (r, q) of what it writes is row 5000·t + r of the features against column q of the weights.
  That is the value at (5000·t + r, q) of a single function of the two arrays — every row times the weight matrix —
  so each written block is that function restricted to the block's rows. Row i lies in the block of point i / 5000,
  every point writes its block back, and so after the ten points the result array is that function everywhere.
-/
import proofs.«153675_j66005057405276_1_alg».proof.Proof.Gen.KernelIdeal.Frame
import proofs.«153675_j66005057405276_1_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The corner (0, 0) as the constant-zero offset. -/
theorem zeros2_r2 : (![0, 0] : Fin 2 → Nat) = fun _ => 0 := funext fun a => by fin_cases a <;> rfl

/-- The index maps over the ten points: the feature rows and the result rows move with the point, on the row axis
    only; the weight matrix is the same whole block at every point. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- What point t writes back is block t of rows-times-weights of the two arrays as the region finds them, given the
    body's result at an entry: row r of the loaded block against column q of the loaded weights. -/
theorem flushed2
    (hpay : ∀ (x0 : Vec Ideal S5000x128 .f32) (x1 : Vec Ideal S128x64 .f32) (r : Fin 5000) (q : Fin 64),
      k2_pay1 (F := Ideal) x0 x1 (ix2 r q) = dotRow (fun k => x0 (ix2 r k)) (fun k => x1 (ix2 k q)))
    (c : Dev nD) (t : Fin cfg2.N) :
    (dat2 V c).flushed 2 t = ((cfg2.win 2).blk t).view.read (Elt Ideal) (mm64 (V c main_v47) (V c main_arg6)) := by
  show (cfg2.win 2).cut (grid2.coords t) ((dat2 V c).after 2 t) = _
  rw [after2_2]
  unfold out2_2
  rw [View.canon_unit_zero zeros2_r2]
  simp only [View.ld_unit_zero (S := S5000x128) zeros2_r2, View.ld_unit_zero (S := S128x64) zeros2_r2]
  obtain ⟨e00, e01, e10, e11, e20, e21, ht⟩ := index2 t
  funext j
  obtain ⟨r, q, rfl⟩ : ∃ (r : Fin 5000) (q : Fin 64), j = ix2 r q := ⟨j 0, j 1, eq_ix2 j⟩
  show k2_pay1 (iblk2 V c 0 t) (iblk2 V c 1 t) (ix2 r q)
    = mm64 (V c main_v47) (V c main_arg6) (((cfg2.win 2).blk t).view.emb (ix2 r q))
  refine (hpay (iblk2 V c 0 t) (iblk2 V c 1 t) r q).trans ?_
  have hrow : t.val * 5000 + r.val < 50000 := by have := r.isLt; omega
  have hi : ((cfg2.win 2).blk t).view.emb (ix2 r q) = ix2 (⟨t.val * 5000 + r.val, hrow⟩ : Fin 50000) q := by
    funext a; apply Fin.ext
    match a with
    | ⟨0, _⟩ => show win2_2.index t (0 : Fin 2) * 5000 + 1 * r.val = t.val * 5000 + r.val; rw [e20]; omega
    | ⟨1, _⟩ => show win2_2.index t (1 : Fin 2) * 64 + 1 * q.val = q.val; rw [e21]; omega
  rw [hi, mm64_apply]
  unfold dotRow
  refine Finset.sum_congr rfl fun k _ => ?_
  have h0 : iblk2 V c 0 t (ix2 r k) = V c main_v47 (ix2 (⟨t.val * 5000 + r.val, hrow⟩ : Fin 50000) k) := by
    show V c main_v47 (((cfg2.win 0).blk t).view.emb (ix2 r k)) = _
    refine congrArg (V c main_v47) ?_
    funext a; apply Fin.ext
    match a with
    | ⟨0, _⟩ => show win2_0.index t (0 : Fin 2) * 5000 + 1 * r.val = t.val * 5000 + r.val; rw [e00]; omega
    | ⟨1, _⟩ => show win2_0.index t (1 : Fin 2) * 128 + 1 * k.val = k.val; rw [e01]; omega
  have h1 : iblk2 V c 1 t (ix2 k q) = V c main_arg6 (ix2 k q) := by
    show V c main_arg6 (((cfg2.win 1).blk t).view.emb (ix2 k q)) = _
    refine congrArg (V c main_arg6) ?_
    funext a; apply Fin.ext
    match a with
    | ⟨0, _⟩ => show win2_1.index t (0 : Fin 2) * 128 + 1 * k.val = k.val; rw [e10]; omega
    | ⟨1, _⟩ => show win2_1.index t (1 : Fin 2) * 64 + 1 * q.val = q.val; rw [e11]; omega
  exact congrArg₂ (fun a b : EReal => a * b) h0 h1

/-- An index of the array lies in point t's block iff each coordinate lies in the block's range on its axis. -/
theorem mem_blk2 (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v48).slice (win2_2.rect t)).set ↔ _
  rw [View.set_slice_whole, Rect.mem_set_unit]
  exact Iff.rfl

/-- Every row lies in the block of the point numbered by the row divided by 5000. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  let t : Fin cfg2.N := ⟨(i 0).val / 5000, by rw [show cfg2.N = 10 from N_2]; omega⟩
  obtain ⟨-, -, -, -, e20, e21, -⟩ := index2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e20, ht]; omega
  | ⟨1, _⟩ => show win2_2.index t (1 : Fin 2) * 64 ≤ (i 1).val ∧ (i 1).val < win2_2.index t (1 : Fin 2) * 64 + 64; rw [e21]; omega

/-- The second dense step's array after its region: rows times weights of the arrays the region found. -/
theorem region2_value
    (hpay : ∀ (x0 : Vec Ideal S5000x128 .f32) (x1 : Vec Ideal S128x64 .f32) (r : Fin 5000) (q : Fin 64),
      k2_pay1 (F := Ideal) x0 x1 (ix2 r q) = dotRow (fun k => x0 (ix2 r k)) (fun k => x1 (ix2 k q)))
    (c : Dev nD) :
    (dat2 V c).arrAt 2 cfg2.N = mm64 (V c main_v47) (V c main_arg6) :=
  (dat2 V c).arrAt_eq_of_cover 2 (mm64 (V c main_v47) (V c main_arg6)) (fun t _ => flushed2 V hpay c t) cover2

end Cert.KernelIdeal.Blocks

end
-- ==== Proof.Region3.lean ====
/-
  The bias step, from blocks to the whole array.

  Ten grid points once more. Point t loads rows 5000·t … 5000·t + 4999 of the aggregated 64-lane array and, the same
  at every point, the one-row bias array; it writes back the same range of rows of the result. Entry (r, q) of what
  it writes is the loaded entry (r, q) plus the bias at lane q, which is the value at (5000·t + r, q) of a single
  function of the two arrays: every row with the bias row added lane by lane. Each written block is that function
  restricted to the block's rows; row i lies in the block of point i / 5000 and every point writes its block back,
  so after the ten points the result array is that function everywhere.
-/
import proofs.«153675_j66005057405276_1_alg».proof.Proof.Gen.KernelIdeal.Frame
import proofs.«153675_j66005057405276_1_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The corner (0, 0) as the constant-zero offset. -/
theorem zeros2_r3 : (![0, 0] : Fin 2 → Nat) = fun _ => 0 := funext fun a => by fin_cases a <;> rfl

/-- The index maps over the ten points: the input rows and the result rows move with the point, on the row axis
    only; the bias row is the same whole block at every point. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- What point t writes back is block t of rows-plus-bias of the two arrays as the region finds them, given the
    body's result at an entry: the loaded block's entry plus the loaded bias row's lane. -/
theorem flushed3
    (hpay : ∀ (x0 : Vec Ideal S5000x64 .f32) (x1 : Vec Ideal S1x64 .f32) (r : Fin 5000) (q : Fin 64),
      k3_pay1 (F := Ideal) x0 x1 (ix2 r q) = x0 (ix2 r q) + row64 x1 q)
    (c : Dev nD) (t : Fin cfg3.N) :
    (dat3 V c).flushed 2 t
      = ((cfg3.win 2).blk t).view.read (Elt Ideal) (addRow64 (V c main_v61) (row64 (V c main_v62))) := by
  show (cfg3.win 2).cut (grid3.coords t) ((dat3 V c).after 2 t) = _
  rw [after3_2]
  unfold out3_2
  rw [View.canon_unit_zero zeros2_r3]
  simp only [View.ld_unit_zero (S := S5000x64) zeros2_r3, View.ld_unit_zero (S := S1x64) zeros2_r3]
  obtain ⟨e00, e01, e10, e11, e20, e21, ht⟩ := index3 t
  funext j
  obtain ⟨r, q, rfl⟩ : ∃ (r : Fin 5000) (q : Fin 64), j = ix2 r q := ⟨j 0, j 1, eq_ix2 j⟩
  show k3_pay1 (iblk3 V c 0 t) (iblk3 V c 1 t) (ix2 r q)
    = addRow64 (V c main_v61) (row64 (V c main_v62)) (((cfg3.win 2).blk t).view.emb (ix2 r q))
  refine (hpay (iblk3 V c 0 t) (iblk3 V c 1 t) r q).trans ?_
  have hrow : t.val * 5000 + r.val < 50000 := by have := r.isLt; omega
  have hi : ((cfg3.win 2).blk t).view.emb (ix2 r q) = ix2 (⟨t.val * 5000 + r.val, hrow⟩ : Fin 50000) q := by
    funext a; apply Fin.ext
    match a with
    | ⟨0, _⟩ => show win3_2.index t (0 : Fin 2) * 5000 + 1 * r.val = t.val * 5000 + r.val; rw [e20]; omega
    | ⟨1, _⟩ => show win3_2.index t (1 : Fin 2) * 64 + 1 * q.val = q.val; rw [e21]; omega
  rw [hi, addRow64_apply]
  have h0 : iblk3 V c 0 t (ix2 r q) = V c main_v61 (ix2 (⟨t.val * 5000 + r.val, hrow⟩ : Fin 50000) q) := by
    show V c main_v61 (((cfg3.win 0).blk t).view.emb (ix2 r q)) = _
    refine congrArg (V c main_v61) ?_
    funext a; apply Fin.ext
    match a with
    | ⟨0, _⟩ => show win3_0.index t (0 : Fin 2) * 5000 + 1 * r.val = t.val * 5000 + r.val; rw [e00]; omega
    | ⟨1, _⟩ => show win3_0.index t (1 : Fin 2) * 64 + 1 * q.val = q.val; rw [e01]; omega
  have h1 : row64 (iblk3 V c 1 t) q = row64 (V c main_v62) q := by
    unfold row64
    show V c main_v62 (((cfg3.win 1).blk t).view.emb (ix2 (0 : Fin 1) q)) = _
    refine congrArg (V c main_v62) ?_
    funext a; apply Fin.ext
    match a with
    | ⟨0, _⟩ => show win3_1.index t (0 : Fin 2) * 1 + 1 * 0 = 0; rw [e10]
    | ⟨1, _⟩ => show win3_1.index t (1 : Fin 2) * 64 + 1 * q.val = q.val; rw [e11]; omega
  exact congrArg₂ (fun a b : EReal => a + b) h0 h1

/-- An index of the array lies in point t's block iff each coordinate lies in the block's range on its axis. -/
theorem mem_blk3 (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v63).slice (win3_2.rect t)).set ↔ _
  rw [View.set_slice_whole, Rect.mem_set_unit]
  exact Iff.rfl

/-- Every row lies in the block of the point numbered by the row divided by 5000. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  let t : Fin cfg3.N := ⟨(i 0).val / 5000, by rw [show cfg3.N = 10 from N_3]; omega⟩
  obtain ⟨-, -, -, -, e20, e21, -⟩ := index3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e20, ht]; omega
  | ⟨1, _⟩ => show win3_2.index t (1 : Fin 2) * 64 ≤ (i 1).val ∧ (i 1).val < win3_2.index t (1 : Fin 2) * 64 + 64; rw [e21]; omega

/-- The bias step's array after its region: the array the region found, the bias row added to every row. -/
theorem region3_value
    (hpay : ∀ (x0 : Vec Ideal S5000x64 .f32) (x1 : Vec Ideal S1x64 .f32) (r : Fin 5000) (q : Fin 64),
      k3_pay1 (F := Ideal) x0 x1 (ix2 r q) = x0 (ix2 r q) + row64 x1 q)
    (c : Dev nD) :
    (dat3 V c).arrAt 2 cfg3.N = addRow64 (V c main_v61) (row64 (V c main_v62)) :=
  (dat3 V c).arrAt_eq_of_cover 2 (addRow64 (V c main_v61) (row64 (V c main_v62))) (fun t _ => flushed3 V hpay c t) cover3

end Cert.KernelIdeal.Blocks

end
-- ==== Proof.DenseRows.lean ====
/-
  The three dense kernel bodies read at one entry, over the extended reals.

  Two of the bodies are a block of rows times a weight matrix accumulated into a zero block: entry (r, q) of the
  product is the sum over the 128 lanes k of x(r, k) · w(k, q), the row r of the left operand against the column q
  of the right one. The third adds the one row of a [1, 64] bias to every row of a [5000, 64] block: entry (r, q)
  is x(r, q) plus the bias at lane q.
-/
import proofs.«153675_j66005057405276_1_alg».proof.Proof.Gen.KernelIdeal.Skeleton
import proofs.«153675_j66005057405276_1_alg».proof.Proof.Spec
import proofs.«153675_j66005057405276_1_alg».proof.Proof.LibIndexRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Cert.Gcn Idealize.ShloMosaic Idealize.ShloMosaic.ValueIdx Idealize.ShloMosaic.RowRead

/-! ## The bias row added to a block -/

/-- Entry (r, q) of the block plus the broadcast bias row: the block's entry plus the bias at lane q. The two casts
    to the same shape are identities, and the one row spread over the 5000 rows reads its lane q at every row. -/
theorem k3_pay1_apply (x0 : Vec Ideal S5000x64 .f32) (x1 : Vec Ideal S1x64 .f32) (r : Fin 5000) (q : Fin 64) :
    k3_pay1 (F := Ideal) x0 x1 (ix2 r q) = x0 (ix2 r q) + row64 x1 q := by
  unfold k3_pay1
  rw [shapeCast_self, shapeCast_self]
  refine (addf_apply _ _ _).trans ?_
  exact congrArg (x0 (ix2 r q) + ·) (broadcastTo_1b_ab_apply x1 broadcasts_S1x64_S5000x64 r q)

/-! ## A block of rows times the 128 × 128 weight matrix

The operand indices of the product at a result index and a contraction position, axis by axis. -/

/-- On the left operand's row axis the operand index is the result's row coordinate, whatever the contraction position. -/
theorem lhs_k0_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- On the left operand's lane axis, the one contracted, the operand index is the contraction position's coordinate. -/
theorem lhs_k0_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- On the right operand's row axis, the one contracted, the operand index is the contraction position's coordinate. -/
theorem rhs_k0_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- On the right operand's column axis the operand index is the result's column coordinate, whatever the contraction position. -/
theorem rhs_k0_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (r, q) of a [5000, 128] block times a [128, 128] matrix, accumulated into the zero block: the sum over the
    contraction index of the products; the contraction has one axis of extent 128, so the sum runs over the lanes
    k, and the operands are read at (r, k) and (k, q). -/
theorem k0_pay1_apply (x0 : Vec Ideal S5000x128 .f32) (x1 : Vec Ideal S128x128 .f32) (r : Fin 5000) (q : Fin 128) :
    k0_pay1 (F := Ideal) x0 x1 (ix2 r q) = dotRow (fun k => x0 (ix2 r k)) (fun k => x1 (ix2 k q)) := by
  unfold k0_pay1
  refine (Ideal.matmul_constant_zero_apply dot_S5000x128_S128x128_S5000x128_1_0_0_1_n_n none x0 x1 (ix2 r q)).trans ?_
  rw [← Equiv.sum_comp (ValueIdx.contrEquiv1 dot_S5000x128_S128x128_S5000x128_1_0_0_1_n_n 128 rfl rfl).symm]
  unfold dotRow
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q)
      ((ValueIdx.contrEquiv1 dot_S5000x128_S128x128_S5000x128_1_0_0_1_n_n 128 rfl rfl).symm k) = ix2 r k :=
    funext fun a => Fin.ext (by
      match a with
      | ⟨0, _⟩ => exact lhs_k0_0 _ _
      | ⟨1, _⟩ => exact (lhs_k0_1 _ _).trans hk)
  have er : dot_S5000x128_S128x128_S5000x128_1_0_0_1_n_n.rhsIdx (ix2 r q)
      ((ValueIdx.contrEquiv1 dot_S5000x128_S128x128_S5000x128_1_0_0_1_n_n 128 rfl rfl).symm k) = ix2 k q :=
    funext fun a => Fin.ext (by
      match a with
      | ⟨0, _⟩ => exact (rhs_k0_0 _ _).trans hk
      | ⟨1, _⟩ => exact rhs_k0_1 _ _)
  rw [el, er]

/-! ## A block of rows times the 128 × 64 weight matrix

The same product down to 64 columns; the left operand first passes through a cast to its own shape, the identity. -/

/-- On the left operand's row axis the operand index is the result's row coordinate, whatever the contraction position. -/
theorem lhs_k2_0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
/-- On the left operand's lane axis, the one contracted, the operand index is the contraction position's coordinate. -/
theorem lhs_k2_1 (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
/-- On the right operand's row axis, the one contracted, the operand index is the contraction position's coordinate. -/
theorem rhs_k2_0 (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
/-- On the right operand's column axis the operand index is the result's column coordinate, whatever the contraction position. -/
theorem rhs_k2_1 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- Entry (r, q) of a [5000, 128] block times a [128, 64] matrix, accumulated into the zero block: the sum over the
    contraction index of the products; the contraction has one axis of extent 128, so the sum runs over the lanes
    k, and the operands are read at (r, k) and (k, q). -/
theorem k2_pay1_apply (x0 : Vec Ideal S5000x128 .f32) (x1 : Vec Ideal S128x64 .f32) (r : Fin 5000) (q : Fin 64) :
    k2_pay1 (F := Ideal) x0 x1 (ix2 r q) = dotRow (fun k => x0 (ix2 r k)) (fun k => x1 (ix2 k q)) := by
  unfold k2_pay1
  rw [shapeCast_self]
  refine (Ideal.matmul_constant_zero_apply dot_S5000x128_S128x64_S5000x64_1_0_0_1_n_n none x0 x1 (ix2 r q)).trans ?_
  rw [← Equiv.sum_comp (ValueIdx.contrEquiv1 dot_S5000x128_S128x64_S5000x64_1_0_0_1_n_n 128 rfl rfl).symm]
  unfold dotRow
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r q)
      ((ValueIdx.contrEquiv1 dot_S5000x128_S128x64_S5000x64_1_0_0_1_n_n 128 rfl rfl).symm k) = ix2 r k :=
    funext fun a => Fin.ext (by
      match a with
      | ⟨0, _⟩ => exact lhs_k2_0 _ _
      | ⟨1, _⟩ => exact (lhs_k2_1 _ _).trans hk)
  have er : dot_S5000x128_S128x64_S5000x64_1_0_0_1_n_n.rhsIdx (ix2 r q)
      ((ValueIdx.contrEquiv1 dot_S5000x128_S128x64_S5000x64_1_0_0_1_n_n 128 rfl rfl).symm k) = ix2 k q :=
    funext fun a => Fin.ext (by
      match a with
      | ⟨0, _⟩ => exact (rhs_k2_0 _ _).trans hk
      | ⟨1, _⟩ => exact rhs_k2_1 _ _)
  rw [el, er]

end Cert.KernelIdeal.RowValue

end
-- ==== Proof.NormRow.lean ====
/-
  The bias + layer-normalisation + clip block of 5000 rows, read at one entry.

  From a [5000, 128] block x and three [1, 128] rows (the bias b, the scale γ and the shift β) the block computes,
  row by row,
      pre(k) = x(r, k) + b(k),
      μ      = (∑ k, pre(k)) / 128,
      σ²     = (∑ k, (pre(k) − μ)²) / 128,
      out(q) = max ((pre(q) − μ) · rsqrt (σ² + ε) · γ(q) + β(q), 0).
  It does so on whole blocks: the two sums are reductions over the lane axis whose [5000] results are kept as
  [5000, 1] columns, a column is spread over the 128 lanes where a row's entries need it, and a [1, 128] row is
  spread over the 5000 rows. Over the extended reals every arithmetic step is the exact one, so the entry (r, q) of
  the result is the one-row function of the specification at row r and lane q: every layout step reads ONE entry of
  its operand, and the two reductions are finite sums over the 128 lanes.
-/
import proofs.«153675_j66005057405276_1_alg».proof.Proof.Gen.KernelIdeal.Skeleton
import proofs.«153675_j66005057405276_1_alg».proof.Proof.Spec
import proofs.«153675_j66005057405276_1_alg».proof.Proof.LibIndexRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Cert.Gcn Idealize.ShloMosaic Idealize.ShloMosaic.ValueIdx Idealize.ShloMosaic.RowRead

/-- The sum over the 128 lanes of a [5000, 128] block, read at row r: the reduction over the lane axis is the
    finite sum over that axis's coordinates, and the reduced index r with the lane k put back is (r, k). The two
    side conditions of the reduction (the format is one it is defined at; the accumulator's word is the neutral
    element of addition) are variables, so that the statement applies whatever proofs of them an operation carries. -/
theorem laneSum_apply (v : FVec Ideal S5000x128 .f32) (hφ : FKind.Formats .f32)
    (hacc : (0x00000000#32 : BitVec FTy.f32.bits) = FKind.add.neutral .f32 hφ) (r : Fin 5000) :
    multiReduction (F := Ideal) .add [1] S5000 v 0x00000000#32 reduces_S5000x128_S5000 hφ hacc (ix1 r)
      = ∑ k : Fin 128, v (ix2 r k) := by
  refine (Ideal.multiReduction_add_single v 0x00000000#32 reduces_S5000x128_S5000 hφ hacc (ix1 r)).trans ?_
  refine Finset.sum_congr rfl fun k _ => ?_
  exact congrArg v (funext fun a => Fin.ext (by match a with | ⟨0, _⟩ => rfl | ⟨1, _⟩ => rfl))

/-- The reciprocal square root of a block, read at an index, is the reciprocal square root of the entry. -/
theorem rsqrt_apply {s : Shape} {φ : FTy} (a : FVec Ideal s φ) (i : s.Idx) : rsqrt a i = Ideal.rsqrt (a i) := rfl

/-- THE BLOCK AT (r, q) is the specification's one-row function at row r of the block, lane q.

    Read from the outside in: the maximum, sums, products, differences and quotients are entrywise; a [1, 128] row
    spread over the rows reads the row at lane q; a [5000, 1] column spread over the lanes reads the column at row r;
    a [5000] vector kept as a column reads the vector at r; the casts of a shape to itself do nothing; and each of the
    two lane reductions at r is the sum over the 128 lanes of its operand at (r, k), under which the same readings
    apply again. What is left is, term for term, the one-row function with pre(k) = x(r, k) + b(k): its mean, its
    variance and its literals 128, ε and 0 unfold to the same expressions. -/
theorem k1_pay1_apply (x0 : Vec Ideal S5000x128 .f32) (x1 x2 x3 : Vec Ideal S1x128 .f32) (r : Fin 5000) (q : Fin 128) :
    k1_pay1 (F := Ideal) x0 x1 x2 x3 (ix2 r q)
      = lnreluRow (fun k => x0 (ix2 r k) + row128 x1 k) (row128 x2) (row128 x3) q := by
  -- the lane sum at the side conditions' canonical proofs, for every block and row
  have hsum := fun (v : FVec Ideal S5000x128 .f32) (p : Fin 5000) => laneSum_apply v (Or.inl rfl) rfl p
  unfold k1_pay1
  simp only [maximumf_apply, addf_apply, mulf_apply, subf_apply, divf_apply, rsqrt_apply, broadcast_apply,
    shapeCast_self, shapeCast_a_a1_apply, broadcastTo_a1_ab_apply, broadcastTo_1b_ab_apply, hsum]
  rfl

end Cert.KernelIdeal.RowValue

end
-- ==== Proof.HostGlue.lean ====
/-
  The idealized kernel's result as the reference's last stage.

  The kernel's @main alternates host stretches and kernel regions; the contents of a buffer at each boundary are a fold
  from the launch memory. Boundary by boundary, each buffer the later steps read holds what the reference's stage of
  the same name holds:
    * the edge sources and targets with the self loops appended, and the per-edge normalisation d(src)^(-1/2) · d(dst)^(-1/2),
      are the same host operations of the edge array in both programs, and no later segment writes them;
    * the first dense step leaves rows times weights, which is the reference's dot_general;
    * the aggregation (gather the source rows, scale, scatter-add to the targets) is the same host operations applied
      to equal values;
    * the normalisation step leaves the row-wise normalisation, which is the reference's layer norm and clip — the
      parameter rows the kernel takes as [1, 128] reshapes are the vectors the reference broadcasts;
    * likewise the second dense step, the second aggregation and the final bias.
-/
import proofs.«153675_j66005057405276_1_alg».proof.Proof.Gen.KernelIdeal.Frame
import proofs.«153675_j66005057405276_1_alg».proof.Proof.RefReadP
import proofs.«153675_j66005057405276_1_alg».proof.Proof.RefIsSpec
import proofs.«153675_j66005057405276_1_alg».proof.Proof.Spec
import proofs.«153675_j66005057405276_1_alg».proof.Proof.Region0
import proofs.«153675_j66005057405276_1_alg».proof.Proof.Region1
import proofs.«153675_j66005057405276_1_alg».proof.Proof.Region2
import proofs.«153675_j66005057405276_1_alg».proof.Proof.Region3
import proofs.«153675_j66005057405276_1_alg».proof.Proof.DenseRows
import proofs.«153675_j66005057405276_1_alg».proof.Proof.NormRow
import Idealize.ShloMosaic.Lib.StableHlo.Run
import Idealize.ShloMosaic.Lib.ValueLayout

set_option maxRecDepth 16384

noncomputable section

namespace Cert.KernelIdeal.HostGlue

open Cert.KernelIdeal Cert.KernelIdeal.Gen Cert.Gcn
open Idealize.ShloMosaic Idealize.ShloMosaic.TcCoe Idealize.SL.Sem Idealize.ShloMosaic.StableHlo
open Idealize.ShloMosaic.ValueIdx
open Cert.ReferenceIdeal.ReadP (val_main_v3 val_main_v6 val_main_v29 val_main_v30 val_main_v43 val_main_v71 val_main_v72
  val_main_v85 val_main_v88)

variable (m : (ℓ : Loc nD τ sig) → Buf (Elt Ideal) ℓ) (ρ : Dev nD → PrngReg)

/-- The one row of a vector reshaped to [1, n] is the vector. -/
theorem row128_cast (x : Vect 128) (h : (⟨1, ![128]⟩ : Shape).ShapeCasts ⟨2, ![1, 128]⟩) :
    row128 (shapeCast ⟨2, ![1, 128]⟩ x h) = vec128 x :=
  funext fun k => shapeCast_a_1a_apply x h 0 k
theorem row64_cast (x : Vect 64) (h : (⟨1, ![64]⟩ : Shape).ShapeCasts ⟨2, ![1, 64]⟩) :
    row64 (shapeCast ⟨2, ![1, 64]⟩ x h) = vec64 x :=
  funext fun k => shapeCast_a_1a_apply x h 0 k

/-! ## Before the first region: the arguments as launched, the edge lists and the edge normalisation -/

theorem W3_arg0 (c : Dev nD) : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results
theorem W3_arg1 (c : Dev nD) : W3 m ρ c (Proc.devRef .tc main_arg1) = (m ((c.tc : Thread nD τ).loc main_arg1)) := by
  show StableHlo.after hostOps0_2 (StableHlo.after hostOps0_1 (StableHlo.after hostOps0 (W0 m ρ c))) (Proc.devRef .tc main_arg1) = _
  after_results
theorem W3_arg2 (c : Dev nD) : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results
theorem W3_arg3 (c : Dev nD) : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results
theorem W3_arg4 (c : Dev nD) : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results
theorem W3_arg5 (c : Dev nD) : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results
theorem W3_arg6 (c : Dev nD) : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  after_results
theorem W3_arg7 (c : Dev nD) : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  after_results

theorem W3_v3 (c : Dev nD) : W3 m ρ c (Proc.devRef .tc main_v3) = val_main_v3 (F := Ideal) (m ((c.tc : Thread nD τ).loc main_arg1)) := by
  show StableHlo.after hostOps0_2 (StableHlo.after hostOps0_1 (StableHlo.after hostOps0 (W0 m ρ c))) (Proc.devRef .tc main_v3) = _
  after_results
  rfl
theorem W3_v6 (c : Dev nD) : W3 m ρ c (Proc.devRef .tc main_v6) = val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results
  rfl
/-- The degree mask and the reciprocal square root of the degree after the first stretch of host operations. -/
theorem W1_v12 (c : Dev nD) : W1 m ρ c (Proc.devRef .tc main_v12)
    = Cert.ReferenceIdeal.ReadP.val_main_v12 (F := Ideal) (m ((c.tc : Thread nD τ).loc main_arg1)) := by
  show StableHlo.after hostOps0 (W0 m ρ c) (Proc.devRef .tc main_v12) = _
  after_results
  rfl
theorem W1_v13 (c : Dev nD) : W1 m ρ c (Proc.devRef .tc main_v13)
    = Cert.ReferenceIdeal.ReadP.val_main_v13 (F := Ideal) (m ((c.tc : Thread nD τ).loc main_arg1)) := by
  show StableHlo.after hostOps0 (W0 m ρ c) (Proc.devRef .tc main_v13) = _
  after_results
  rfl
theorem W1_cst_2 (c : Dev nD) : W1 m ρ c (Proc.devRef .tc main_cst_2)
    = Cert.ReferenceIdeal.ReadP.val_main_cst_2 (F := Ideal) := by
  show StableHlo.after hostOps0 (W0 m ρ c) (Proc.devRef .tc main_cst_2) = _
  after_results
  rfl
theorem W1_v3 (c : Dev nD) : W1 m ρ c (Proc.devRef .tc main_v3) = val_main_v3 (F := Ideal) (m ((c.tc : Thread nD τ).loc main_arg1)) := by
  show StableHlo.after hostOps0 (W0 m ρ c) (Proc.devRef .tc main_v3) = _
  after_results
  rfl
theorem W1_v6 (c : Dev nD) : W1 m ρ c (Proc.devRef .tc main_v6) = val_main_v6 (F := Ideal) (m ((c.tc : Thread nD τ).loc main_arg1)) := by
  show StableHlo.after hostOps0 (W0 m ρ c) (Proc.devRef .tc main_v6) = _
  after_results
  rfl

set_option maxHeartbeats 4000000 in
/-- The normalising factor of a node, d^(-1/2) where the degree is positive and 0 elsewhere, after the second stretch. -/
theorem W2_v14 (c : Dev nD) : W2 m ρ c (Proc.devRef .tc main_v14)
    = Cert.ReferenceIdeal.ReadP.val_main_v14 (F := Ideal) (m ((c.tc : Thread nD τ).loc main_arg1)) := by
  have h12 := W1_v12 m ρ c
  have h13 := W1_v13 m ρ c
  have hc := W1_cst_2 m ρ c
  -- the reference's stage, opened one level, over the SAME three values the stretch reads
  unfold Cert.ReferenceIdeal.ReadP.val_main_v14 Cert.ReferenceIdeal.ReadP.val_main_call0_v1
    Cert.ReferenceIdeal.ReadP.val_main_call0_v0
  rw [← h12, ← h13, ← hc]
  show StableHlo.after hostOps0_1 (W1 m ρ c) (Proc.devRef .tc main_v14) = _
  generalize W1 m ρ c = Wv
  after_results
  -- both sides are now one expression of three values; with those as variables the two spellings agree
  generalize Wv (Proc.devRef .tc main_v12) = w12
  generalize Wv (Proc.devRef .tc main_v13) = w13
  generalize Wv (Proc.devRef .tc main_cst_2) = wc
  rfl
theorem W2_v3 (c : Dev nD) : W2 m ρ c (Proc.devRef .tc main_v3) = val_main_v3 (F := Ideal) (m ((c.tc : Thread nD τ).loc main_arg1)) := by
  have h := W1_v3 m ρ c
  show StableHlo.after hostOps0_1 (W1 m ρ c) (Proc.devRef .tc main_v3) = _
  generalize W1 m ρ c = Wv at h ⊢
  after_results
  exact h
theorem W2_v6 (c : Dev nD) : W2 m ρ c (Proc.devRef .tc main_v6) = val_main_v6 (F := Ideal) (m ((c.tc : Thread nD τ).loc main_arg1)) := by
  have h := W1_v6 m ρ c
  show StableHlo.after hostOps0_1 (W1 m ρ c) (Proc.devRef .tc main_v6) = _
  generalize W1 m ρ c = Wv at h ⊢
  after_results
  exact h

set_option maxHeartbeats 4000000 in
/-- The per-edge normalisation, the product of the two end nodes' factors, after the third stretch. -/
theorem W3_v29 (c : Dev nD) : W3 m ρ c (Proc.devRef .tc main_v29) = val_main_v29 (F := Ideal) (m ((c.tc : Thread nD τ).loc main_arg1)) := by
  have h14 := W2_v14 m ρ c
  have h3 := W2_v3 m ρ c
  have h6 := W2_v6 m ρ c
  show StableHlo.after hostOps0_2 (W2 m ρ c) (Proc.devRef .tc main_v29) = _
  generalize W2 m ρ c = Wv at h14 h3 h6 ⊢
  after_results
  rw [h14, h3, h6]
  rfl

/-! ## The first region and the first aggregation -/

theorem W4_v3 (c : Dev nD) : W4 m ρ c (Proc.devRef .tc main_v3) = val_main_v3 (F := Ideal) (m ((c.tc : Thread nD τ).loc main_arg1)) :=
  (W4_of_ne m ρ c main_v3 (by decide)).trans (W3_v3 m ρ c)
theorem W4_v6 (c : Dev nD) : W4 m ρ c (Proc.devRef .tc main_v6) = val_main_v6 (F := Ideal) (m ((c.tc : Thread nD τ).loc main_arg1)) :=
  (W4_of_ne m ρ c main_v6 (by decide)).trans (W3_v6 m ρ c)
theorem W4_v29 (c : Dev nD) : W4 m ρ c (Proc.devRef .tc main_v29) = val_main_v29 (F := Ideal) (m ((c.tc : Thread nD τ).loc main_arg1)) :=
  (W4_of_ne m ρ c main_v29 (by decide)).trans (W3_v29 m ρ c)
theorem W4_arg3 (c : Dev nD) : W4 m ρ c (Proc.devRef .tc main_arg3) = (m ((c.tc : Thread nD τ).loc main_arg3)) :=
  (W4_of_ne m ρ c main_arg3 (by decide)).trans (W3_arg3 m ρ c)
theorem W4_arg4 (c : Dev nD) : W4 m ρ c (Proc.devRef .tc main_arg4) = (m ((c.tc : Thread nD τ).loc main_arg4)) :=
  (W4_of_ne m ρ c main_arg4 (by decide)).trans (W3_arg4 m ρ c)
theorem W4_arg5 (c : Dev nD) : W4 m ρ c (Proc.devRef .tc main_arg5) = (m ((c.tc : Thread nD τ).loc main_arg5)) :=
  (W4_of_ne m ρ c main_arg5 (by decide)).trans (W3_arg5 m ρ c)
theorem W4_arg6 (c : Dev nD) : W4 m ρ c (Proc.devRef .tc main_arg6) = (m ((c.tc : Thread nD τ).loc main_arg6)) :=
  (W4_of_ne m ρ c main_arg6 (by decide)).trans (W3_arg6 m ρ c)
theorem W4_arg7 (c : Dev nD) : W4 m ρ c (Proc.devRef .tc main_arg7) = (m ((c.tc : Thread nD τ).loc main_arg7)) :=
  (W4_of_ne m ρ c main_arg7 (by decide)).trans (W3_arg7 m ρ c)

theorem W4_v30 (c : Dev nD) : W4 m ρ c (Proc.devRef .tc main_v30) = val_main_v30 (F := Ideal) (m ((c.tc : Thread nD τ).loc main_arg0)) (m ((c.tc : Thread nD τ).loc main_arg2)) :=
  ((W4_arr m ρ c 2).trans (Blocks.region0_value (V3 m ρ) RowValue.k0_pay1_apply c)).trans
    ((congrArg₂ mm128 (W3_arg0 m ρ c) (W3_arg2 m ρ c)).trans (Cert.ReferenceIdeal.RefValue.v30_eq _ _).symm)

set_option maxHeartbeats 4000000 in
theorem W5_v43 (c : Dev nD) : W5 m ρ c (Proc.devRef .tc main_v43) = val_main_v43 (F := Ideal) (m ((c.tc : Thread nD τ).loc main_arg0)) (m ((c.tc : Thread nD τ).loc main_arg1)) (m ((c.tc : Thread nD τ).loc main_arg2)) := by
  show StableHlo.after hostOps1 (W4 m ρ c) (Proc.devRef .tc main_v43) = _
  after_results
  rw [W4_v30, W4_v3, W4_v6, W4_v29]
  rfl

theorem W5_v3 (c : Dev nD) : W5 m ρ c (Proc.devRef .tc main_v3) = val_main_v3 (F := Ideal) (m ((c.tc : Thread nD τ).loc main_arg1)) := by
  refine Eq.trans ?_ (W4_v3 m ρ c)
  show StableHlo.after hostOps1 (W4 m ρ c) (Proc.devRef .tc main_v3) = _
  after_results
theorem W5_v6 (c : Dev nD) : W5 m ρ c (Proc.devRef .tc main_v6) = val_main_v6 (F := Ideal) (m ((c.tc : Thread nD τ).loc main_arg1)) := by
  refine Eq.trans ?_ (W4_v6 m ρ c)
  show StableHlo.after hostOps1 (W4 m ρ c) (Proc.devRef .tc main_v6) = _
  after_results
theorem W5_v29 (c : Dev nD) : W5 m ρ c (Proc.devRef .tc main_v29) = val_main_v29 (F := Ideal) (m ((c.tc : Thread nD τ).loc main_arg1)) := by
  refine Eq.trans ?_ (W4_v29 m ρ c)
  show StableHlo.after hostOps1 (W4 m ρ c) (Proc.devRef .tc main_v29) = _
  after_results
theorem W5_arg6 (c : Dev nD) : W5 m ρ c (Proc.devRef .tc main_arg6) = (m ((c.tc : Thread nD τ).loc main_arg6)) := by
  refine Eq.trans ?_ (W4_arg6 m ρ c)
  show StableHlo.after hostOps1 (W4 m ρ c) (Proc.devRef .tc main_arg6) = _
  after_results
theorem W5_arg7 (c : Dev nD) : W5 m ρ c (Proc.devRef .tc main_arg7) = (m ((c.tc : Thread nD τ).loc main_arg7)) := by
  refine Eq.trans ?_ (W4_arg7 m ρ c)
  show StableHlo.after hostOps1 (W4 m ρ c) (Proc.devRef .tc main_arg7) = _
  after_results

theorem W5_row44 (c : Dev nD) : row128 (W5 m ρ c (Proc.devRef .tc main_v44)) = vec128 (m ((c.tc : Thread nD τ).loc main_arg3)) := by
  have h : W5 m ρ c (Proc.devRef .tc main_v44) = shapeCast S1x128 (W4 m ρ c (Proc.devRef .tc main_arg3)) shapeCasts_S128_S1x128 := by
    show StableHlo.after hostOps1 (W4 m ρ c) (Proc.devRef .tc main_v44) = _
    after_results
    rfl
  rw [h, W4_arg3]
  exact row128_cast _ _
theorem W5_row45 (c : Dev nD) : row128 (W5 m ρ c (Proc.devRef .tc main_v45)) = vec128 (m ((c.tc : Thread nD τ).loc main_arg4)) := by
  have h : W5 m ρ c (Proc.devRef .tc main_v45) = shapeCast S1x128 (W4 m ρ c (Proc.devRef .tc main_arg4)) shapeCasts_S128_S1x128 := by
    show StableHlo.after hostOps1 (W4 m ρ c) (Proc.devRef .tc main_v45) = _
    after_results
    rfl
  rw [h, W4_arg4]
  exact row128_cast _ _
theorem W5_row46 (c : Dev nD) : row128 (W5 m ρ c (Proc.devRef .tc main_v46)) = vec128 (m ((c.tc : Thread nD τ).loc main_arg5)) := by
  have h : W5 m ρ c (Proc.devRef .tc main_v46) = shapeCast S1x128 (W4 m ρ c (Proc.devRef .tc main_arg5)) shapeCasts_S128_S1x128 := by
    show StableHlo.after hostOps1 (W4 m ρ c) (Proc.devRef .tc main_v46) = _
    after_results
    rfl
  rw [h, W4_arg5]
  exact row128_cast _ _

/-! ## The normalisation region and the second dense region -/

theorem W6_v47 (c : Dev nD) : W6 m ρ c (Proc.devRef .tc main_v47)
    = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 4).trans ?_
  refine (Blocks.region1_value (V5 m ρ) RowValue.k1_pay1_apply c).trans ?_
  show lnrelu (W5 m ρ c (Proc.devRef .tc main_v43)) (row128 (W5 m ρ c (Proc.devRef .tc main_v44)))
    (row128 (W5 m ρ c (Proc.devRef .tc main_v45))) (row128 (W5 m ρ c (Proc.devRef .tc main_v46))) = _
  rw [W5_v43, W5_row44, W5_row45, W5_row46]
  exact (Cert.ReferenceIdeal.RefValue.v71_eq _ _ _ _ _ _).symm

theorem W7_v3 (c : Dev nD) : W7 m ρ c (Proc.devRef .tc main_v3) = val_main_v3 (F := Ideal) (m ((c.tc : Thread nD τ).loc main_arg1)) :=
  ((W7_of_ne m ρ c main_v3 (by decide)).trans (W6_of_ne m ρ c main_v3 (by decide))).trans (W5_v3 m ρ c)
theorem W7_v6 (c : Dev nD) : W7 m ρ c (Proc.devRef .tc main_v6) = val_main_v6 (F := Ideal) (m ((c.tc : Thread nD τ).loc main_arg1)) :=
  ((W7_of_ne m ρ c main_v6 (by decide)).trans (W6_of_ne m ρ c main_v6 (by decide))).trans (W5_v6 m ρ c)
theorem W7_v29 (c : Dev nD) : W7 m ρ c (Proc.devRef .tc main_v29) = val_main_v29 (F := Ideal) (m ((c.tc : Thread nD τ).loc main_arg1)) :=
  ((W7_of_ne m ρ c main_v29 (by decide)).trans (W6_of_ne m ρ c main_v29 (by decide))).trans (W5_v29 m ρ c)
theorem W6_arg6 (c : Dev nD) : W6 m ρ c (Proc.devRef .tc main_arg6) = (m ((c.tc : Thread nD τ).loc main_arg6)) :=
  (W6_of_ne m ρ c main_arg6 (by decide)).trans (W5_arg6 m ρ c)
theorem W7_arg7 (c : Dev nD) : W7 m ρ c (Proc.devRef .tc main_arg7) = (m ((c.tc : Thread nD τ).loc main_arg7)) :=
  ((W7_of_ne m ρ c main_arg7 (by decide)).trans (W6_of_ne m ρ c main_arg7 (by decide))).trans (W5_arg7 m ρ c)

theorem W7_v48 (c : Dev nD) : W7 m ρ c (Proc.devRef .tc main_v48)
    = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  ((W7_arr m ρ c 2).trans (Blocks.region2_value (V6 m ρ) RowValue.k2_pay1_apply c)).trans
    ((congrArg₂ mm64 (W6_v47 m ρ c) (W6_arg6 m ρ c)).trans (Cert.ReferenceIdeal.RefValue.v72_eq _ _ _ _ _ _ _).symm)

/-! ## The second aggregation and the final bias -/

set_option maxHeartbeats 4000000 in
theorem W8_v61 (c : Dev nD) : W8 m ρ c (Proc.devRef .tc main_v61)
    = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps3 (W7 m ρ c) (Proc.devRef .tc main_v61) = _
  after_results
  rw [W7_v48, W7_v3, W7_v6, W7_v29]
  rfl

theorem W8_row62 (c : Dev nD) : row64 (W8 m ρ c (Proc.devRef .tc main_v62)) = vec64 (m ((c.tc : Thread nD τ).loc main_arg7)) := by
  have h : W8 m ρ c (Proc.devRef .tc main_v62) = shapeCast S1x64 (W7 m ρ c (Proc.devRef .tc main_arg7)) shapeCasts_S64_S1x64 := by
    show StableHlo.after hostOps3 (W7 m ρ c) (Proc.devRef .tc main_v62) = _
    after_results
    rfl
  rw [h, W7_arg7]
  exact row64_cast _ _

/-- The kernel's result array at the last boundary is the reference's last stage of the launch contents. -/
theorem result_eq (c : Dev nD) : W9 m ρ c (Proc.devRef .tc main_v63)
    = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W9_arr m ρ c 2).trans ?_
  refine (Blocks.region3_value (V8 m ρ) RowValue.k3_pay1_apply c).trans ?_
  show addRow64 (W8 m ρ c (Proc.devRef .tc main_v61)) (row64 (W8 m ρ c (Proc.devRef .tc main_v62))) = _
  rw [W8_v61, W8_row62]
  exact (Cert.ReferenceIdeal.RefValue.v88_eq _ _ _ _ _ _ _ _).symm

end Cert.KernelIdeal.HostGlue

end
-- ==== Proof.lean ====
/-
  A two-layer graph convolution network, computed by four Pallas kernels with the neighbourhood aggregation on the host
  between them, against its jnp reference: equal results over the extended reals.

  Both programs compute, for node features x, edges e, weights W₁, W₂, biases b₁, b₂ and normalisation parameters γ, β,
      out = Â · (relu (LN (Â · (x W₁) + b₁; γ, β)) W₂) + b₂,
  where Â · h gathers the rows of h at the edge sources (self loops appended), scales row j by
  d(src j)^(-1/2) · d(dst j)^(-1/2) (d the in-degree counted by a scatter-add of ones) and scatter-adds the rows to the edge
  targets, and LN centres each row by its mean, scales it by (variance + ε)^(-1/2), multiplies by γ and adds β.
  The two programs spell Â with the same host operations. They differ in the dense steps: the kernels take the rows
  in ten blocks of 5000 (a matmul into a zero accumulator per block, lane reductions per block, the parameter vectors
  as [1, n] rows), the reference takes whole arrays (dot_general, row reductions with a zero initial value, the parameter
  vectors broadcast). Over the extended reals a block of a row-wise function is the function of the block, a matmul into zero
  and a dot_general are the same sum of products, and a zero initial value adds nothing: no law that needs finiteness is
  used, so the precondition is never opened.

  The pieces: the specification (Spec), each kernel body at one entry (DenseRows, NormRow), each region's array from
  blocks to the whole (Region0 … Region3), the kernel's run with its result named (KernelRun), the boundary-by-boundary
  identification of the kernel's buffers with the reference's stages (HostGlue), the reference's run and its stages read
  at an index (RefRunP, RefReadP) and those stages as the specification's functions (RefIsSpec).
-/
import proofs.«153675_j66005057405276_1_alg».proof.Defs
import proofs.«153675_j66005057405276_1_alg».proof.Proof.Gen.Kernel
import proofs.«153675_j66005057405276_1_alg».proof.Proof.Gen.Kernel.Frame
import proofs.«153675_j66005057405276_1_alg».proof.Proof.Gen.KernelIdeal
import proofs.«153675_j66005057405276_1_alg».proof.Proof.Gen.KernelIdeal.Frame
import proofs.«153675_j66005057405276_1_alg».proof.Proof.Gen.ReferenceIdeal
import proofs.«153675_j66005057405276_1_alg».proof.Proof.Gen.Pre_finite_inputs
import proofs.«153675_j66005057405276_1_alg».proof.Proof.RefRunP
import proofs.«153675_j66005057405276_1_alg».proof.Proof.RefReadP
import proofs.«153675_j66005057405276_1_alg».proof.Proof.KernelRun
import proofs.«153675_j66005057405276_1_alg».proof.Proof.HostGlue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- And the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing: the idealized kernel is the kernel's own text read over the extended reals. -/
theorem preserves : Cert.preserves_Kernel_KernelIdeal := trivial

/-- From memories agreeing on the arguments both idealized programs run, and the kernel's result array — the last
    boundary's contents at the result buffer — is the reference's last stage of the same arguments. -/
theorem algebraic : Cert.algebraic_KernelIdeal_ReferenceIdeal := by
  intro m ρ m' ρ' _ hagree
  refine ⟨fun c => Cert.KernelIdeal.Gen.W9 m ρ c (Proc.devRef .tc Cert.KernelIdeal.main_v63),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v88_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.HostGlue.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
